-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 56
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .bf16⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S10000x1, .f32⟩
  | .local _ .vmem, ⟨14, _⟩ => ⟨S10000x1, .f32⟩
  | .local _ .vmem, ⟨15, _⟩ => ⟨S10000x128, .bf16⟩
  | .local _ .vmem, ⟨16, _⟩ => ⟨S10000x128, .bf16⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .bf16 = 32 ∨ (Rect.block (s := S100000x128) S10000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibSageLayer.lean ====
/-
  One layer of a mean-aggregating graph convolution, node by node, over the extended reals.

  A node's new feature row is computed from three things: the SUM `a` of its in-neighbours' feature rows, the
  number `d` of those neighbours, and its own row `h`. The sum is turned into a mean by dividing by `max d 1`
  (a node without in-neighbours keeps a zero sum), the mean goes through one weight matrix, the node's own row
  through another, and a bias row is added:

      combine a d h wl wr b  =  j ↦ (∑ k, (a k / max d 1) · wl[k, j]) + (∑ k, h k · wr[k, j]) + b j.

  This file names that row function and the whole-array function `layer` built from it, and reads, ROW BY ROW,
  the two spellings of it that occur: the device's (two products into zero accumulators added, then the bias
  row broadcast down the rows, the divisor a column broadcast along the lanes) and the host's (product, bias,
  product, the divisor a vector given a unit axis and broadcast). The two differ in the order of the three
  summands only, and addition of extended reals is commutative and associative, so no finiteness is needed.
  Every statement is for an arbitrary number of rows: one calculus serves a block of rows and the whole array.
-/
import proofs.«165354_j26474178413285_2_alg».proof.Proof.LibRowLayers
import proofs.«165354_j26474178413285_2_alg».proof.Proof.LibColumnCast
import proofs.«165354_j26474178413285_2_alg».proof.Proof.LibColumnBroadcast

noncomputable section

namespace Cert.SageLayer

open Idealize.ShloMosaic Idealize.ShloMosaic.ValueIdx Cert.RowLayers

/-- One node's combine: the mean of the neighbour sum `a` (divided by `max d u`, `u` the unit) through `wl`, the
    node's own row `h` through `wr`, plus the bias `b`. -/
def combine {K J : ℕ} (u : EReal) (a : Fin K → EReal) (d : EReal) (h : Fin K → EReal)
    (wl wr : (⟨2, ![K, J]⟩ : Shape).Idx → EReal) (b : Fin J → EReal) : Fin J → EReal :=
  fun j => (∑ k : Fin K, Ideal.div (a k) (max d u) * wl (ix2 k j)) + (∑ k : Fin K, h k * wr (ix2 k j)) + b j

/-- The layer on whole arrays: row `p` of the result is `combine` of row `p` of the neighbour sums, the count at
    `p` and row `p` of the features. -/
def layer {N K J : ℕ} (u : EReal) (agg : (⟨2, ![N, K]⟩ : Shape).Idx → EReal) (deg : Fin N → EReal)
    (h : (⟨2, ![N, K]⟩ : Shape).Idx → EReal) (wl wr : (⟨2, ![K, J]⟩ : Shape).Idx → EReal) (b : Fin J → EReal) :
    (⟨2, ![N, J]⟩ : Shape).Idx → EReal :=
  fun i => combine u (rowOf agg (i 0)) (deg (i 0)) (rowOf h (i 0)) wl wr b (i 1)

theorem layer_ix2 {N K J : ℕ} (u : EReal) (agg : (⟨2, ![N, K]⟩ : Shape).Idx → EReal) (deg : Fin N → EReal)
    (h : (⟨2, ![N, K]⟩ : Shape).Idx → EReal) (wl wr : (⟨2, ![K, J]⟩ : Shape).Idx → EReal) (b : Fin J → EReal)
    (p : Fin N) (j : Fin J) :
    layer u agg deg h wl wr b (ix2 p j) = combine u (rowOf agg p) (deg p) (rowOf h p) wl wr b j := rfl

section Spellings
variable {a K J : ℕ} {d : DotDims ⟨2, ![a, K]⟩ ⟨2, ![K, J]⟩ ⟨2, ![a, J]⟩} {φ : FTy}

/-- The device's spelling, on a row: the neighbour sums divided by the count column (its maximum with the unit,
    broadcast along the lanes), times `wl`; plus the features times `wr`; plus the bias row broadcast down. -/
theorem rowOf_combine_device (H : RowsTimesCols d) (prec : Option ContractPrecision)
    (agg : FVec Ideal ⟨2, ![a, K]⟩ .f32) (deg : FVec Ideal ⟨2, ![a, 1]⟩ .f32) (h : FVec Ideal ⟨2, ![a, K]⟩ φ)
    (wl wr : FVec Ideal ⟨2, ![K, J]⟩ .f32) (bias : FVec Ideal ⟨2, ![1, J]⟩ .f32) (u : Ideal .f32)
    (hD : (⟨2, ![a, 1]⟩ : Shape).Broadcasts ⟨2, ![a, K]⟩) (hB : (⟨2, ![1, J]⟩ : Shape).Broadcasts ⟨2, ![a, J]⟩) (p : Fin a) :
    rowOf (addf (addf
        (matmul d prec (divf agg (broadcastTo ⟨2, ![a, K]⟩ (maximumf deg (broadcast ⟨2, ![a, 1]⟩ u)) hD)) wl
          (constant (F := Ideal) ⟨2, ![a, J]⟩ .f32 0x00000000#32))
        (matmul d prec h wr (constant (F := Ideal) ⟨2, ![a, J]⟩ .f32 0x00000000#32)))
        (broadcastTo ⟨2, ![a, J]⟩ bias hB)) p
      = combine u (rowOf agg p) (deg (ix2 p (0 : Fin 1))) (rowOf h p) wl wr (rowOf bias 0) := by
  rw [rowOf_addf, rowOf_addf, rowOf_matmul_zero H, rowOf_matmul_zero H, rowOf_broadcastTo]
  funext j
  unfold combine
  refine congrArg (· + rowOf bias 0 j) (congrArg (· + ∑ k : Fin K, rowOf h p k * wr (ix2 k j)) ?_)
  refine Finset.sum_congr rfl fun k _ => congrArg (· * wl (ix2 k j)) ?_
  show Ideal.div (agg (ix2 p k)) (broadcastTo ⟨2, ![a, K]⟩ (maximumf deg (broadcast ⟨2, ![a, 1]⟩ u)) hD (ix2 p k)) = _
  rw [Cert.ColumnBroadcast.broadcastTo_a1_ab_apply]
  rfl

/-- A vector kept as a column and broadcast along the lanes (the host's two steps), on a row: every entry of row
    `p` is the vector's entry `p`. -/
theorem rowOf_broadcastInDim_col {α : Type} (x : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, K]⟩ ![0, 1]) (p : Fin a) :
    rowOf (broadcastInDim ⟨2, ![a, K]⟩ ![0, 1] h2 (broadcastInDim ⟨2, ![a, 1]⟩ ![0] h1 x)) p = fun _ => x (ix1 p) := by
  funext c
  show broadcastInDim ⟨2, ![a, K]⟩ ![0, 1] h2 (broadcastInDim ⟨2, ![a, 1]⟩ ![0] h1 x) (ix2 p c) = x (ix1 p)
  rw [broadcastInDim_apply ![0, 1] h2 _ (ix2 p c) (ix2 p (0 : Fin 1)) (fun ax => by
        match ax with
        | ⟨0, _⟩ => show p.val = if a = 1 then 0 else p.val; split <;> [(have := p.isLt; omega); rfl]
        | ⟨1, _⟩ => show (0 : ℕ) = if (1 : ℕ) = 1 then 0 else c.val; rw [if_pos rfl]),
      broadcastInDim_apply ![0] h1 x (ix2 p (0 : Fin 1)) (ix1 p) (fun ax => by
        match ax with
        | ⟨0, _⟩ => show p.val = if a = 1 then 0 else p.val; split <;> [(have := p.isLt; omega); rfl])]

/-- The host's spelling, on a row: the neighbour sums divided by the count vector (its maximum with the unit,
    kept as a column and broadcast), times `wl`; plus the bias; plus the features times `wr`. The same row
    function: only the order of the last two summands differs. -/
theorem rowOf_combine_host {s0 : Shape} (H : RowsTimesCols d) (prec : Option ContractPrecision)
    (agg : FVec Ideal ⟨2, ![a, K]⟩ .f32) (deg : FVec Ideal ⟨1, ![a]⟩ .f32) (h : FVec Ideal ⟨2, ![a, K]⟩ φ)
    (wl wr : FVec Ideal ⟨2, ![K, J]⟩ .f32) (b : FVec Ideal ⟨1, ![J]⟩ .f32) (w : BitVec 32)
    (dims0 : Fin s0.rank → Fin 1) (h0 : s0.BroadcastsInDim ⟨1, ![a]⟩ dims0)
    (h1 : (⟨1, ![a]⟩ : Shape).BroadcastsInDim ⟨2, ![a, 1]⟩ ![0]) (h2 : (⟨2, ![a, 1]⟩ : Shape).BroadcastsInDim ⟨2, ![a, K]⟩ ![0, 1])
    (g1 : (⟨1, ![J]⟩ : Shape).BroadcastsInDim ⟨2, ![1, J]⟩ ![1]) (g2 : (⟨2, ![1, J]⟩ : Shape).BroadcastsInDim ⟨2, ![a, J]⟩ ![0, 1]) (p : Fin a) :
    rowOf (addf (addf
        (Host.dotGeneral (F := Ideal) d prec
          (Host.divf agg (broadcastInDim ⟨2, ![a, K]⟩ ![0, 1] h2 (broadcastInDim ⟨2, ![a, 1]⟩ ![0] h1
            (maximumf deg (broadcastInDim ⟨1, ![a]⟩ dims0 h0 (constant (F := Ideal) s0 .f32 w)))))) wl)
        (broadcastInDim ⟨2, ![a, J]⟩ ![0, 1] g2 (broadcastInDim ⟨2, ![1, J]⟩ ![1] g1 b)))
        (Host.dotGeneral (F := Ideal) d prec h wr)) p
      = combine (Ideal.ofBits .f32 w) (rowOf agg p) (deg (ix1 p)) (rowOf h p) wl wr (fun j => b (ix1 j)) := by
  rw [rowOf_addf, rowOf_addf, rowOf_dotGeneral H, rowOf_dotGeneral H, rowOf_broadcastInDim_vec]
  funext j
  unfold combine
  rw [add_right_comm]
  refine congrArg (· + b (ix1 j)) (congrArg (· + ∑ k : Fin K, rowOf h p k * wr (ix2 k j)) ?_)
  refine Finset.sum_congr rfl fun k _ => congrArg (· * wl (ix2 k j)) ?_
  show Ideal.div (agg (ix2 p k)) (rowOf (broadcastInDim ⟨2, ![a, K]⟩ ![0, 1] h2 (broadcastInDim ⟨2, ![a, 1]⟩ ![0] h1
      (maximumf deg (broadcastInDim ⟨1, ![a]⟩ dims0 h0 (constant (F := Ideal) s0 .f32 w))))) p k) = _
  rw [rowOf_broadcastInDim_col]
  rfl

end Spellings

end Cert.SageLayer

end
-- ==== Proof.KernelBlock.lean ====
/-
  What one grid point of each of the two kernels computes, on a row.

  Both kernels take a block of rows of the neighbour sums, the matching block of the neighbour-count column, the
  matching block of the node features, and two whole weight matrices and a bias row; each row of the block they
  store is `SageLayer.combine` of that row — the first kernel takes the maximum with zero on top of it (the
  rectifier) and narrows the result's float format, the second kernel widens its feature block first. At the
  ideal instance a change of format is the identity, so the first kernel's row is the rectified combine and the
  second's is the combine.
-/
import proofs.«165354_j26474178413285_2_alg».proof.Proof.Gen.KernelIdeal.Skeleton
import proofs.«165354_j26474178413285_2_alg».proof.Proof.LibSageLayer

noncomputable section

namespace Cert.KernelIdeal.Block

open Idealize.ShloMosaic Idealize.ShloMosaic.ValueIdx Cert.RowLayers Cert.SageLayer Cert.KernelIdeal Cert.KernelIdeal.Gen

/-- The unit and the zero the kernels splat, as extended reals. -/
abbrev one : EReal := Ideal.ofBits .f32 0x3F800000#32
abbrev zero : EReal := Ideal.ofBits .f32 0x00000000#32

/-- The kernels' matrix product is "rows times columns": it contracts the left operand's second axis with the
    right operand's first. -/
theorem rows_times_cols : RowsTimesCols dot_S10000x128_S128x128_S10000x128_1_0_0_1_n_n where
  rank := rfl
  size := rfl
  lhs0 := fun j q => by
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  lhs1 := fun j q => dot_S10000x128_S128x128_S10000x128_1_0_0_1_n_n.lhsIdx_val_of_single rfl j q
  rhs0 := fun j q => dot_S10000x128_S128x128_S10000x128_1_0_0_1_n_n.rhsIdx_val_of_single rfl j q
  rhs1 := fun j q => by
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- Row `p` of what the first kernel stores: the rectified combine of row `p` of its blocks. -/
theorem first_row (deg : Vec Ideal S10000x1 .f32) (agg h : Vec Ideal S10000x128 .f32) (wl wr : Vec Ideal S128x128 .f32)
    (bias : Vec Ideal S1x128 .f32) (p : Fin 10000) :
    rowOf (k0_pay1 (F := Ideal) deg agg h wl wr bias) p
      = relu zero (combine one (rowOf agg p) (deg (ix2 p (0 : Fin 1))) (rowOf h p) wl wr (rowOf bias 0)) := by
  unfold k0_pay1
  dsimp only
  simp only [shapeCast_self]
  rw [rowOf_truncf, rowOf_maximumf_splat, rowOf_combine_device rows_times_cols]
  rfl

/-- Row `p` of what the second kernel stores: the combine of row `p` of its blocks. -/
theorem second_row (deg : Vec Ideal S10000x1 .f32) (agg : Vec Ideal S10000x128 .f32) (h : Vec Ideal S10000x128 .bf16)
    (wl wr : Vec Ideal S128x128 .f32) (bias : Vec Ideal S1x128 .f32) (p : Fin 10000) :
    rowOf (k1_pay1 (F := Ideal) deg agg h wl wr bias) p
      = combine one (rowOf agg p) (deg (ix2 p (0 : Fin 1))) (rowOf h p) wl wr (rowOf bias 0) := by
  unfold k1_pay1
  dsimp only
  simp only [shapeCast_self]
  rw [rowOf_combine_device rows_times_cols]
  rfl

end Cert.KernelIdeal.Block

end
-- ==== Proof.RegionValue.lean ====
/-
  What each kernel region leaves in its output array, as one function of the arrays it finds.

  A region runs its kernel at ten grid points; point `t` is handed rows `t · 10000 … t · 10000 + 9999` of the
  neighbour sums, of the neighbour-count column and of the node features, and the whole weight matrices and bias
  row, and writes back rows `t · 10000 …` of the output. Each stored row is the combine of the matching input
  rows (rectified, for the first region), so what point `t` writes back is block `t` of ONE whole-array
  function — the layer — of the arrays the region finds; the ten blocks tile the output, so after the region the
  output array IS that function. Stated for any contents `V` at the region's entry.
-/
import proofs.«165354_j26474178413285_2_alg».proof.Proof.Gen.KernelIdeal.Frame
import proofs.«165354_j26474178413285_2_alg».proof.Proof.KernelBlock

set_option maxRecDepth 16384

noncomputable section

namespace Cert.KernelIdeal.Region

open Cert.KernelIdeal Cert.KernelIdeal.Gen Cert.KernelIdeal.Block Cert.SageLayer Cert.RowLayers
open Idealize.ShloMosaic Idealize.ShloMosaic.TcCoe Idealize.ShloMosaic.ValueIdx Idealize.SL.Sem
open Idealize.ShloMosaic.Pipeline (Dat Cfg Window)

/-- The first layer on whole arrays: the rectified combine, the neighbour count kept as a column and the bias as a
    row (the shapes the kernel is handed). -/
def firstLayer (agg : S100000x128.Idx → EReal) (deg2d : S100000x1.Idx → EReal) (h : S100000x128.Idx → EReal)
    (wl wr : S128x128.Idx → EReal) (b2d : S1x128.Idx → EReal) : S100000x128.Idx → EReal :=
  fun i => max (layer one agg (fun p => deg2d (ix2 p (0 : Fin 1))) h wl wr (rowOf b2d 0) i) zero

/-- The second layer on whole arrays: the combine. -/
def secondLayer (agg : S100000x128.Idx → EReal) (deg2d : S100000x1.Idx → EReal) (h : S100000x128.Idx → EReal)
    (wl wr : S128x128.Idx → EReal) (b2d : S1x128.Idx → EReal) : S100000x128.Idx → EReal :=
  layer one agg (fun p => deg2d (ix2 p (0 : Fin 1))) h wl wr (rowOf b2d 0)

/-- Row `r` of block `t` (of ten blocks of 10000 rows) is row `t · 10000 + r` of the array. -/
def rowAt (t : ℕ) (ht : t < 10) (r : Fin 10000) : Fin 100000 := ⟨t * 10000 + r.val, by have := r.isLt; omega⟩

/-- A block of the first kernel: if its input blocks are rows `t · 10000 …` of the arrays and its weight and bias
    blocks the whole arrays, what it stores at `(r, q)` is the first layer at `(t · 10000 + r, q)`. -/
theorem first_block (agg : S100000x128.Idx → EReal) (deg2d : S100000x1.Idx → EReal) (h : S100000x128.Idx → EReal)
    (wl wr : S128x128.Idx → EReal) (b2d : S1x128.Idx → EReal)
    (x0 : Vec Ideal S10000x128 .f32) (x1 : Vec Ideal S10000x1 .f32) (x2 : Vec Ideal S10000x128 .f32)
    (x3 x5 : Vec Ideal S128x128 .f32) (x4 : Vec Ideal S1x128 .f32) (t : ℕ) (ht : t < 10)
    (h0 : ∀ (r : Fin 10000) (k : Fin 128), x0 (ix2 r k) = agg (ix2 (rowAt t ht r) k))
    (h1 : ∀ r : Fin 10000, x1 (ix2 r (0 : Fin 1)) = deg2d (ix2 (rowAt t ht r) (0 : Fin 1)))
    (h2 : ∀ (r : Fin 10000) (k : Fin 128), x2 (ix2 r k) = h (ix2 (rowAt t ht r) k))
    (h3 : x3 = wl) (h4 : x4 = b2d) (h5 : x5 = wr) (r : Fin 10000) (q : Fin 128) :
    k0_pay1 (F := Ideal) x1 x0 x2 x3 x5 x4 (ix2 r q) = firstLayer agg deg2d h wl wr b2d (ix2 (rowAt t ht r) q) := by
  subst h3 h4 h5
  show rowOf (k0_pay1 (F := Ideal) x1 x0 x2 x3 x5 x4) r q = _
  rw [first_row]
  unfold firstLayer relu
  rw [layer_ix2, h1 r, show rowOf x0 r = rowOf agg (rowAt t ht r) from funext (h0 r),
    show rowOf x2 r = rowOf h (rowAt t ht r) from funext (h2 r)]

theorem second_block (agg : S100000x128.Idx → EReal) (deg2d : S100000x1.Idx → EReal) (h : S100000x128.Idx → EReal)
    (wl wr : S128x128.Idx → EReal) (b2d : S1x128.Idx → EReal)
    (x0 : Vec Ideal S10000x128 .f32) (x1 : Vec Ideal S10000x1 .f32) (x2 : Vec Ideal S10000x128 .bf16)
    (x3 x5 : Vec Ideal S128x128 .f32) (x4 : Vec Ideal S1x128 .f32) (t : ℕ) (ht : t < 10)
    (h0 : ∀ (r : Fin 10000) (k : Fin 128), x0 (ix2 r k) = agg (ix2 (rowAt t ht r) k))
    (h1 : ∀ r : Fin 10000, x1 (ix2 r (0 : Fin 1)) = deg2d (ix2 (rowAt t ht r) (0 : Fin 1)))
    (h2 : ∀ (r : Fin 10000) (k : Fin 128), x2 (ix2 r k) = h (ix2 (rowAt t ht r) k))
    (h3 : x3 = wl) (h4 : x4 = b2d) (h5 : x5 = wr) (r : Fin 10000) (q : Fin 128) :
    k1_pay1 (F := Ideal) x1 x0 x2 x3 x5 x4 (ix2 r q) = secondLayer agg deg2d h wl wr b2d (ix2 (rowAt t ht r) q) := by
  subst h3 h4 h5
  show rowOf (k1_pay1 (F := Ideal) x1 x0 x2 x3 x5 x4) r q = _
  rw [second_row]
  unfold secondLayer
  rw [layer_ix2, h1 r, show rowOf x0 r = rowOf agg (rowAt t ht r) from funext (h0 r),
    show rowOf x2 r = rowOf h (rowAt t ht r) from funext (h2 r)]

/-- The first kernel's stored block as a function: at `j` the first layer at `(t · 10000 + j₀, j₁)`. -/
theorem first_block_fun (agg : S100000x128.Idx → EReal) (deg2d : S100000x1.Idx → EReal) (h : S100000x128.Idx → EReal)
    (wl wr : S128x128.Idx → EReal) (b2d : S1x128.Idx → EReal)
    (x0 : Vec Ideal S10000x128 .f32) (x1 : Vec Ideal S10000x1 .f32) (x2 : Vec Ideal S10000x128 .f32)
    (x3 x5 : Vec Ideal S128x128 .f32) (x4 : Vec Ideal S1x128 .f32) (t : ℕ) (ht : t < 10)
    (h0 : ∀ (r : Fin 10000) (k : Fin 128), x0 (ix2 r k) = agg (ix2 (rowAt t ht r) k))
    (h1 : ∀ r : Fin 10000, x1 (ix2 r (0 : Fin 1)) = deg2d (ix2 (rowAt t ht r) (0 : Fin 1)))
    (h2 : ∀ (r : Fin 10000) (k : Fin 128), x2 (ix2 r k) = h (ix2 (rowAt t ht r) k))
    (h3 : x3 = wl) (h4 : x4 = b2d) (h5 : x5 = wr) :
    (k0_pay1 (F := Ideal) x1 x0 x2 x3 x5 x4 : S10000x128.Idx → EReal)
      = fun j => firstLayer agg deg2d h wl wr b2d (ix2 (rowAt t ht (j 0)) (j 1)) := by
  funext j
  obtain ⟨r, q, rfl⟩ : ∃ (r : Fin 10000) (q : Fin 128), j = ix2 r q := ⟨j 0, j 1, eq_ix2 j⟩
  exact first_block agg deg2d h wl wr b2d x0 x1 x2 x3 x5 x4 t ht h0 h1 h2 h3 h4 h5 r q

/-- The second kernel's stored block as a function. -/
theorem second_block_fun (agg : S100000x128.Idx → EReal) (deg2d : S100000x1.Idx → EReal) (h : S100000x128.Idx → EReal)
    (wl wr : S128x128.Idx → EReal) (b2d : S1x128.Idx → EReal)
    (x0 : Vec Ideal S10000x128 .f32) (x1 : Vec Ideal S10000x1 .f32) (x2 : Vec Ideal S10000x128 .bf16)
    (x3 x5 : Vec Ideal S128x128 .f32) (x4 : Vec Ideal S1x128 .f32) (t : ℕ) (ht : t < 10)
    (h0 : ∀ (r : Fin 10000) (k : Fin 128), x0 (ix2 r k) = agg (ix2 (rowAt t ht r) k))
    (h1 : ∀ r : Fin 10000, x1 (ix2 r (0 : Fin 1)) = deg2d (ix2 (rowAt t ht r) (0 : Fin 1)))
    (h2 : ∀ (r : Fin 10000) (k : Fin 128), x2 (ix2 r k) = h (ix2 (rowAt t ht r) k))
    (h3 : x3 = wl) (h4 : x4 = b2d) (h5 : x5 = wr) :
    (k1_pay1 (F := Ideal) x1 x0 x2 x3 x5 x4 : S10000x128.Idx → EReal)
      = fun j => secondLayer agg deg2d h wl wr b2d (ix2 (rowAt t ht (j 0)) (j 1)) := by
  funext j
  obtain ⟨r, q, rfl⟩ : ∃ (r : Fin 10000) (q : Fin 128), j = ix2 r q := ⟨j 0, j 1, eq_ix2 j⟩
  exact second_block agg deg2d h wl wr b2d x0 x1 x2 x3 x5 x4 t ht h0 h1 h2 h3 h4 h5 r q

section Regions
variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer -/

/-- The index maps of region 0, decided over the grid: the row-block windows are at block `t`, the weight and bias
    windows at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` OF REGION 0 WRITES BACK is block `t` of the layer of the arrays as the region finds them. -/
theorem flushed0 (c : Dev nD) (t : Fin cfg0.N) :
    (dat0 V c).flushed 6 t = ((cfg0.win 6).blk t).view.read (Elt Ideal)
      (firstLayer (V c main_v24) (V c main_v12) (V c main_arg0) (V c main_v4) (V c main_v5) (V c main_v25)) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz, View.ld_unit_zero (S := S128x128) hz, View.ld_unit_zero (S := S1x128) hz]
  have htN : t.val < 10 := lt_of_lt_of_eq t.isLt N_0
  obtain ⟨e00, e01, e10, e11, e20, e21, e30, e31, e40, e41, e50, e51, e60, e61⟩ := idx_facts0 t
  funext j
  show k0_pay1 (F := Ideal) (iblk0 V c 1 t) (iblk0 V c 0 t) (iblk0 V c 2 t) (iblk0 V c 3 t) (iblk0 V c 5 t) (iblk0 V c 4 t) j
    = firstLayer (V c main_v24) (V c main_v12) (V c main_arg0) (V c main_v4) (V c main_v5) (V c main_v25) (((cfg0.win 6).blk t).view.emb j)
  refine (congrFun (first_block_fun (V c main_v24) (V c main_v12) (V c main_arg0) (V c main_v4) (V c main_v5) (V c main_v25)
    (iblk0 V c 0 t) (iblk0 V c 1 t) (iblk0 V c 2 t) (iblk0 V c 3 t) (iblk0 V c 5 t) (iblk0 V c 4 t) t.val htN ?_ ?_ ?_ ?_ ?_ ?_) j).trans ?_
  · intro r k
    show V c main_v24 (((cfg0.win 0).blk t).view.emb (ix2 r k)) = V c main_v24 (ix2 (rowAt t.val htN r) k)
    refine congrArg _ (funext fun a => Fin.ext ?_)
    match a with
    | ⟨0, _⟩ => show win0_0.index t (0 : Fin 2) * 10000 + 1 * r.val = t.val * 10000 + r.val; rw [e00]; omega
    | ⟨1, _⟩ => show win0_0.index t (1 : Fin 2) * 128 + 1 * k.val = k.val; rw [e01]; omega
  · intro r
    show V c main_v12 (((cfg0.win 1).blk t).view.emb (ix2 r (0 : Fin 1))) = V c main_v12 (ix2 (rowAt t.val htN r) (0 : Fin 1))
    refine congrArg _ (funext fun a => Fin.ext ?_)
    match a with
    | ⟨0, _⟩ => show win0_1.index t (0 : Fin 2) * 10000 + 1 * r.val = t.val * 10000 + r.val; rw [e10]; omega
    | ⟨1, _⟩ => show win0_1.index t (1 : Fin 2) * 1 + 1 * 0 = 0; rw [e11]
  · intro r k
    show V c main_arg0 (((cfg0.win 2).blk t).view.emb (ix2 r k)) = V c main_arg0 (ix2 (rowAt t.val htN r) k)
    refine congrArg _ (funext fun a => Fin.ext ?_)
    match a with
    | ⟨0, _⟩ => show win0_2.index t (0 : Fin 2) * 10000 + 1 * r.val = t.val * 10000 + r.val; rw [e20]; omega
    | ⟨1, _⟩ => show win0_2.index t (1 : Fin 2) * 128 + 1 * k.val = k.val; rw [e21]; omega
  · funext y
    show V c main_v4 (((cfg0.win 3).blk t).view.emb y) = V c main_v4 y
    refine congrArg _ (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  · funext y
    show V c main_v25 (((cfg0.win 4).blk t).view.emb y) = V c main_v25 y
    refine congrArg _ (funext fun a => Fin.ext ?_)
    match a with
    | ⟨0, _⟩ => show win0_4.index t (0 : Fin 2) * 1 + 1 * (y 0).val = (y 0).val; rw [e40]; omega
    | ⟨1, _⟩ => show win0_4.index t (1 : Fin 2) * 128 + 1 * (y 1).val = (y 1).val; rw [e41]; omega
  · funext y
    show V c main_v5 (((cfg0.win 5).blk t).view.emb y) = V c main_v5 y
    refine congrArg _ (funext fun a => Fin.ext ?_)
    match a with
    | ⟨0, _⟩ => show win0_5.index t (0 : Fin 2) * 128 + 1 * (y 0).val = (y 0).val; rw [e50]; omega
    | ⟨1, _⟩ => show win0_5.index t (1 : Fin 2) * 128 + 1 * (y 1).val = (y 1).val; rw [e51]; omega
  · refine congrArg _ (funext fun a => Fin.ext ?_)
    match a with
    | ⟨0, _⟩ => show t.val * 10000 + (j 0).val = win0_6.index t (0 : Fin 2) * 10000 + 1 * (j 0).val; rw [e60]; omega
    | ⟨1, _⟩ => show (j 1).val = win0_6.index t (1 : Fin 2) * 128 + 1 * (j 1).val; rw [e61]; omega

/-- An index of the array is in point `t`'s block iff each coordinate is in the block's range on its axis. -/
theorem mem_blk0 (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v26).slice (win0_6.rect t)).set ↔ _
  rw [View.set_slice_whole, Rect.mem_set_unit]
  exact Iff.rfl

/-- Every row of the array is in some point's block: row `r` in block `r / 10000`. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  refine ⟨⟨(i 0).val / 10000, by rw [show cfg0.N = 10 from N_0]; omega⟩, flush0_6 _, ?_⟩
  rw [mem_blk0]
  obtain ⟨e00, e01, e10, e11, e20, e21, e30, e31, e40, e41, e50, e51, e60, e61⟩ := idx_facts0 ⟨(i 0).val / 10000, by rw [show cfg0.N = 10 from N_0]; omega⟩
  intro a
  match a with
  | ⟨0, _⟩ =>
    show win0_6.index _ (0 : Fin 2) * 10000 ≤ (i 0).val ∧ (i 0).val < win0_6.index _ (0 : Fin 2) * 10000 + 10000
    rw [e60]; show (i 0).val / 10000 * 10000 ≤ (i 0).val ∧ (i 0).val < (i 0).val / 10000 * 10000 + 10000; omega
  | ⟨1, _⟩ =>
    show win0_6.index _ (1 : Fin 2) * 128 ≤ (i 1).val ∧ (i 1).val < win0_6.index _ (1 : Fin 2) * 128 + 128
    rw [e61]; omega

/-- THE OUTPUT ARRAY OF REGION 0 after its run: the layer of the arrays as the region finds them. -/
theorem final0 (c : Dev nD) : (dat0 V c).arrAt 6 cfg0.N
    = firstLayer (V c main_v24) (V c main_v12) (V c main_arg0) (V c main_v4) (V c main_v5) (V c main_v25) :=
  (dat0 V c).arrAt_eq_of_cover 6 _ (fun t _ => flushed0 V c t) (cover0)

/-! ## Region 1: the second layer -/

/-- The index maps of region 1, decided over the grid: the row-block windows are at block `t`, the weight and bias
    windows at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` OF REGION 1 WRITES BACK is block `t` of the layer of the arrays as the region finds them. -/
theorem flushed1 (c : Dev nD) (t : Fin cfg1.N) :
    (dat1 V c).flushed 6 t = ((cfg1.win 6).blk t).view.read (Elt Ideal)
      (secondLayer (V c main_v37) (V c main_v12) (V c main_v26) (V c main_v6) (V c main_v7) (V c main_v38)) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz, View.ld_unit_zero (S := S128x128) hz, View.ld_unit_zero (S := S1x128) hz]
  have htN : t.val < 10 := lt_of_lt_of_eq t.isLt N_1
  obtain ⟨e00, e01, e10, e11, e20, e21, e30, e31, e40, e41, e50, e51, e60, e61⟩ := idx_facts1 t
  funext j
  show k1_pay1 (F := Ideal) (iblk1 V c 1 t) (iblk1 V c 0 t) (iblk1 V c 2 t) (iblk1 V c 3 t) (iblk1 V c 5 t) (iblk1 V c 4 t) j
    = secondLayer (V c main_v37) (V c main_v12) (V c main_v26) (V c main_v6) (V c main_v7) (V c main_v38) (((cfg1.win 6).blk t).view.emb j)
  refine (congrFun (second_block_fun (V c main_v37) (V c main_v12) (V c main_v26) (V c main_v6) (V c main_v7) (V c main_v38)
    (iblk1 V c 0 t) (iblk1 V c 1 t) (iblk1 V c 2 t) (iblk1 V c 3 t) (iblk1 V c 5 t) (iblk1 V c 4 t) t.val htN ?_ ?_ ?_ ?_ ?_ ?_) j).trans ?_
  · intro r k
    show V c main_v37 (((cfg1.win 0).blk t).view.emb (ix2 r k)) = V c main_v37 (ix2 (rowAt t.val htN r) k)
    refine congrArg _ (funext fun a => Fin.ext ?_)
    match a with
    | ⟨0, _⟩ => show win1_0.index t (0 : Fin 2) * 10000 + 1 * r.val = t.val * 10000 + r.val; rw [e00]; omega
    | ⟨1, _⟩ => show win1_0.index t (1 : Fin 2) * 128 + 1 * k.val = k.val; rw [e01]; omega
  · intro r
    show V c main_v12 (((cfg1.win 1).blk t).view.emb (ix2 r (0 : Fin 1))) = V c main_v12 (ix2 (rowAt t.val htN r) (0 : Fin 1))
    refine congrArg _ (funext fun a => Fin.ext ?_)
    match a with
    | ⟨0, _⟩ => show win1_1.index t (0 : Fin 2) * 10000 + 1 * r.val = t.val * 10000 + r.val; rw [e10]; omega
    | ⟨1, _⟩ => show win1_1.index t (1 : Fin 2) * 1 + 1 * 0 = 0; rw [e11]
  · intro r k
    show V c main_v26 (((cfg1.win 2).blk t).view.emb (ix2 r k)) = V c main_v26 (ix2 (rowAt t.val htN r) k)
    refine congrArg _ (funext fun a => Fin.ext ?_)
    match a with
    | ⟨0, _⟩ => show win1_2.index t (0 : Fin 2) * 10000 + 1 * r.val = t.val * 10000 + r.val; rw [e20]; omega
    | ⟨1, _⟩ => show win1_2.index t (1 : Fin 2) * 128 + 1 * k.val = k.val; rw [e21]; omega
  · funext y
    show V c main_v6 (((cfg1.win 3).blk t).view.emb y) = V c main_v6 y
    refine congrArg _ (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  · funext y
    show V c main_v38 (((cfg1.win 4).blk t).view.emb y) = V c main_v38 y
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 128 + 1 * (y 1).val = (y 1).val; rw [e41]; omega
  · funext y
    show V c main_v7 (((cfg1.win 5).blk t).view.emb y) = V c main_v7 y
    refine congrArg _ (funext fun a => Fin.ext ?_)
    match a with
    | ⟨0, _⟩ => show win1_5.index t (0 : Fin 2) * 128 + 1 * (y 0).val = (y 0).val; rw [e50]; omega
    | ⟨1, _⟩ => show win1_5.index t (1 : Fin 2) * 128 + 1 * (y 1).val = (y 1).val; rw [e51]; omega
  · refine congrArg _ (funext fun a => Fin.ext ?_)
    match a with
    | ⟨0, _⟩ => show t.val * 10000 + (j 0).val = win1_6.index t (0 : Fin 2) * 10000 + 1 * (j 0).val; rw [e60]; omega
    | ⟨1, _⟩ => show (j 1).val = win1_6.index t (1 : Fin 2) * 128 + 1 * (j 1).val; rw [e61]; omega

/-- An index of the array is in point `t`'s block iff each coordinate is in the block's range on its axis. -/
theorem mem_blk1 (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v39).slice (win1_6.rect t)).set ↔ _
  rw [View.set_slice_whole, Rect.mem_set_unit]
  exact Iff.rfl

/-- Every row of the array is in some point's block: row `r` in block `r / 10000`. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 10000, by rw [show cfg1.N = 10 from N_1]; omega⟩, flush1_6 _, ?_⟩
  rw [mem_blk1]
  obtain ⟨e00, e01, e10, e11, e20, e21, e30, e31, e40, e41, e50, e51, e60, e61⟩ := idx_facts1 ⟨(i 0).val / 10000, by rw [show cfg1.N = 10 from N_1]; omega⟩
  intro a
  match a with
  | ⟨0, _⟩ =>
    show win1_6.index _ (0 : Fin 2) * 10000 ≤ (i 0).val ∧ (i 0).val < win1_6.index _ (0 : Fin 2) * 10000 + 10000
    rw [e60]; show (i 0).val / 10000 * 10000 ≤ (i 0).val ∧ (i 0).val < (i 0).val / 10000 * 10000 + 10000; omega
  | ⟨1, _⟩ =>
    show win1_6.index _ (1 : Fin 2) * 128 ≤ (i 1).val ∧ (i 1).val < win1_6.index _ (1 : Fin 2) * 128 + 128
    rw [e61]; omega

/-- THE OUTPUT ARRAY OF REGION 1 after its run: the layer of the arrays as the region finds them. -/
theorem final1 (c : Dev nD) : (dat1 V c).arrAt 6 cfg1.N
    = secondLayer (V c main_v37) (V c main_v12) (V c main_v26) (V c main_v6) (V c main_v7) (V c main_v38) :=
  (dat1 V c).arrAt_eq_of_cover 6 _ (fun t _ => flushed1 V c t) (cover1)

end Regions

end Cert.KernelIdeal.Region

end
-- ==== Proof.GraphOps.lean ====
/-
  The graph's edge operators, and the two-layer network as one function of the argument arrays.

  The edge list is a [2, E] integer array: row 0 the source node of each edge, row 1 its destination. From it the
  program forms, once, the destination column `dst` (row 1 as an [E, 1] column) and the source column `src` (row 0,
  a negative number wrapped by adding the node count, as an [E, 1] column). Everything the network does with the
  graph goes through two operators built on them:

    degree          = the number of edges into each node: ones scattered-and-added at `dst` into zeros;
    neighbourSum y  = for each node the sum of the rows of `y` at the sources of its incoming edges: the rows of `y`
                      gathered at `src`, scattered-and-added at `dst` into zeros.

  The network is then two layers (`SageLayer.layer`), the first rectified:

    h   = max (layer (neighbourSum x) degree x  W1lᵀ W1rᵀ b1) 0
    out =      layer (neighbourSum h) degree h  W2lᵀ W2rᵀ b2.

  Neither operator is opened here: both programs apply the same two operators to the same edge list, so the
  certificate only needs that they are applied to equal arrays.
-/
import proofs.«165354_j26474178413285_2_alg».proof.Proof.Gen.KernelIdeal
import proofs.«165354_j26474178413285_2_alg».proof.Proof.LibSageLayer

noncomputable section

namespace Cert.KernelIdeal.Graph

open Idealize.ShloMosaic Idealize.ShloMosaic.ValueIdx Cert.RowLayers Cert.SageLayer Cert.KernelIdeal
open Cert.KernelIdeal.Facts₀ Cert.KernelIdeal.Facts

/-- The unit and the zero, as extended reals. -/
abbrev one : EReal := Ideal.ofBits .f32 0x3F800000#32
abbrev zero : EReal := Ideal.ofBits .f32 0x00000000#32

variable (e : (⟨S2x1600000, .i32⟩ : BufTy).Contents (Elt Ideal))

/-- Row `k` of the edge list, as a vector of length E. -/
def edgeRow0 : (⟨S1600000, .i32⟩ : BufTy).Contents (Elt Ideal) :=
  shapeCast S1600000 (extractStridedSlice S1x1600000 ![0, 0] e slices_S2x1600000_S1x1600000_0_0) shapeCasts_S1x1600000_S1600000
def edgeRow1 : (⟨S1600000, .i32⟩ : BufTy).Contents (Elt Ideal) :=
  shapeCast S1600000 (extractStridedSlice S1x1600000 ![1, 0] e slices_S2x1600000_S1x1600000_1_0) shapeCasts_S1x1600000_S1600000

/-- The destination column. -/
def dst : (⟨S1600000x1, .i32⟩ : BufTy).Contents (Elt Ideal) :=
  broadcastInDim S1600000x1 ![0] bcast_S1600000_S1600000x1_0 (edgeRow1 e)

/-- The source column: a negative node number wrapped by the node count. -/
def src : (⟨S1600000x1, .i32⟩ : BufTy).Contents (Elt Ideal) :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The number of edges into each node. -/
def degree : FVec Ideal S100000 .f32 :=
  Host.scatterAdd scatter_S100000_S1600000x1_S1600000_n_0_0_1
    (broadcastInDim S100000 ![] bcast_S_S100000 (constant S_ .f32 0x00000000#32)) (dst e)
    (broadcastInDim S1600000 ![] bcast_S_S1600000 (constant S_ .f32 0x3F800000#32))

/-- For each node, the sum of the rows of `y` at the sources of its incoming edges. -/
def neighbourSum (y : S100000x128.Idx → EReal) : FVec Ideal S100000x128 .f32 :=
  Host.scatterAdd scatter_S100000x128_S1600000x1_S1600000x128_1_0_0_1
    (broadcastInDim S100000x128 ![] bcast_S_S100000x128 (constant S_ .f32 0x00000000#32)) (dst e)
    (Host.gather gather_S100000x128_S1600000x1_S1600000x128_1_0_n_n_0_1_1128 y (src e))

/-- The hidden features: the first layer, rectified. -/
def hidden (x : S100000x128.Idx → EReal) (w1l w1r : S128x128.Idx → EReal) (b1 : S128.Idx → EReal) : S100000x128.Idx → EReal :=
  fun i => max (layer one (neighbourSum e x) (fun p => degree e (ix1 p)) x
    (transpose S128x128 [1, 0] w1l transposes_S128x128_S128x128_1_0) (transpose S128x128 [1, 0] w1r transposes_S128x128_S128x128_1_0)
    (fun j => b1 (ix1 j)) i) zero

/-- The network's output: the second layer of the hidden features. -/
def network (x : S100000x128.Idx → EReal) (w1l w1r w2l w2r : S128x128.Idx → EReal) (b1 b2 : S128.Idx → EReal) : S100000x128.Idx → EReal :=
  layer one (neighbourSum e (hidden e x w1l w1r b1)) (fun p => degree e (ix1 p)) (hidden e x w1l w1r b1)
    (transpose S128x128 [1, 0] w2l transposes_S128x128_S128x128_1_0) (transpose S128x128 [1, 0] w2r transposes_S128x128_S128x128_1_0)
    (fun j => b2 (ix1 j))

end Cert.KernelIdeal.Graph

end
-- ==== Proof.KernelStages.lean ====
/-
  The idealized kernel computes the network.

  The kernel program's buffers are known at every segment boundary as a fold through its host operations and its
  two regions. This file reads that fold at the buffers that matter. Before the first region: the neighbour sums of
  the input features, the neighbour counts kept as a column, the transposed first-layer weights, the first bias
  kept as a row (a narrowing and a widening of the float format around the gather are the identity at the ideal
  instance). The first region leaves the hidden features. Before the second region: the neighbour sums of the
  hidden features — the same edge columns, read back through the first region, which writes none of them —, the
  same counts, the second layer's weights and bias. The second region leaves the network's output in the result
  buffer.
-/
import proofs.«165354_j26474178413285_2_alg».proof.Proof.Gen.KernelIdeal.Frame
import proofs.«165354_j26474178413285_2_alg».proof.Proof.RegionValue
import proofs.«165354_j26474178413285_2_alg».proof.Proof.GraphOps
import Idealize.ShloMosaic.Lib.StableHlo.Run
import Idealize.ShloMosaic.Lib.ValueLayout

set_option maxRecDepth 16384

noncomputable section

namespace Cert.KernelIdeal.Stages

open Cert.KernelIdeal Cert.KernelIdeal.Gen Cert.KernelIdeal.Graph Cert.KernelIdeal.Region Cert.SageLayer Cert.RowLayers
open Idealize.ShloMosaic Idealize.ShloMosaic.TcCoe Idealize.ShloMosaic.ValueIdx Idealize.SL.Sem Idealize.ShloMosaic.StableHlo

/-! ## The kernel's column and row shapes against plain vectors -/

/-- A count vector kept as a column reads, at row `p`, the vector's entry `p`. -/
theorem column_eq (d : S100000.Idx → EReal) (hd : S100000.ShapeCasts S100000x1) :
    (fun p : Fin 100000 => shapeCast S100000x1 d hd (ix2 p (0 : Fin 1))) = fun p => d (ix1 p) :=
  funext fun p => Cert.ColumnCast.shapeCast_a_a1_apply d hd p 0

/-- A bias vector kept as a row: its one row is the vector. -/
theorem row_eq (b : S128.Idx → EReal) (hb : S128.ShapeCasts S1x128) :
    rowOf (shapeCast S1x128 b hb) (0 : Fin 1) = fun j => b (ix1 j) :=
  funext fun j => shapeCast_a_1a_apply b hb 0 j

theorem firstLayer_keepdims (agg h : S100000x128.Idx → EReal) (d : S100000.Idx → EReal) (hd : S100000.ShapeCasts S100000x1)
    (wl wr : S128x128.Idx → EReal) (b : S128.Idx → EReal) (hb : S128.ShapeCasts S1x128) :
    firstLayer agg (shapeCast S100000x1 d hd) h wl wr (shapeCast S1x128 b hb)
      = fun i => max (layer Graph.one agg (fun p => d (ix1 p)) h wl wr (fun j => b (ix1 j)) i) Graph.zero := by
  unfold firstLayer
  rw [column_eq, row_eq]

theorem secondLayer_keepdims (agg h : S100000x128.Idx → EReal) (d : S100000.Idx → EReal) (hd : S100000.ShapeCasts S100000x1)
    (wl wr : S128x128.Idx → EReal) (b : S128.Idx → EReal) (hb : S128.ShapeCasts S1x128) :
    secondLayer agg (shapeCast S100000x1 d hd) h wl wr (shapeCast S1x128 b hb)
      = layer Graph.one agg (fun p => d (ix1 p)) h wl wr (fun j => b (ix1 j)) := by
  unfold secondLayer
  rw [column_eq, row_eq]

variable (m : (ℓ : Loc nD τ sig) → Buf (Elt Ideal) ℓ) (ρ : Dev nD → PrngReg)

/-! ## Before the first region -/

set_option maxHeartbeats 4000000 in
theorem sums1 (c : Dev nD) : (V1 m ρ c main_v24 : S100000x128.Idx → EReal)
    = neighbourSum (m ((c : Thread nD τ).loc main_arg1)) (m ((c : Thread nD τ).loc main_arg0)) := by
  show StableHlo.after hostOps0 (W0 m ρ c) (Proc.devRef .tc main_v24) = _
  after_results_simp
  rfl

set_option maxHeartbeats 4000000 in
theorem counts1 (c : Dev nD) : (V1 m ρ c main_v12 : S100000x1.Idx → EReal)
    = shapeCast S100000x1 (degree (m ((c : Thread nD τ).loc main_arg1))) Cert.KernelIdeal.Facts₀.shapeCasts_S100000_S100000x1 := by
  show StableHlo.after hostOps0 (W0 m ρ c) (Proc.devRef .tc main_v12) = _
  after_results_simp
  rfl

set_option maxHeartbeats 4000000 in
theorem feats1 (c : Dev nD) : (V1 m ρ c main_arg0 : S100000x128.Idx → EReal) = m ((c : Thread nD τ).loc main_arg0) := by
  show StableHlo.after hostOps0 (W0 m ρ c) (Proc.devRef .tc main_arg0) = _
  after_results_simp

set_option maxHeartbeats 4000000 in
theorem wl1 (c : Dev nD) : (V1 m ρ c main_v4 : S128x128.Idx → EReal)
    = transpose S128x128 [1, 0] (m ((c : Thread nD τ).loc main_arg2)) Cert.KernelIdeal.Facts₀.transposes_S128x128_S128x128_1_0 := by
  show StableHlo.after hostOps0 (W0 m ρ c) (Proc.devRef .tc main_v4) = _
  after_results_simp

set_option maxHeartbeats 4000000 in
theorem wr1 (c : Dev nD) : (V1 m ρ c main_v5 : S128x128.Idx → EReal)
    = transpose S128x128 [1, 0] (m ((c : Thread nD τ).loc main_arg4)) Cert.KernelIdeal.Facts₀.transposes_S128x128_S128x128_1_0 := by
  show StableHlo.after hostOps0 (W0 m ρ c) (Proc.devRef .tc main_v5) = _
  after_results_simp

set_option maxHeartbeats 4000000 in
theorem bias1 (c : Dev nD) : (V1 m ρ c main_v25 : S1x128.Idx → EReal)
    = shapeCast S1x128 (m ((c : Thread nD τ).loc main_arg3)) Cert.KernelIdeal.Facts₀.shapeCasts_S128_S1x128 := by
  show StableHlo.after hostOps0 (W0 m ρ c) (Proc.devRef .tc main_v25) = _
  after_results_simp
  rfl

/-! ## The first region's output: the hidden features -/

theorem hidden_eq (c : Dev nD) : (V2 m ρ c main_v26 : S100000x128.Idx → EReal)
    = hidden (m ((c : Thread nD τ).loc main_arg1)) (m ((c : Thread nD τ).loc main_arg0))
        (m ((c : Thread nD τ).loc main_arg2)) (m ((c : Thread nD τ).loc main_arg4)) (m ((c : Thread nD τ).loc main_arg3)) :=
  (W2_arr m ρ c 6).trans ((final0 (V1 m ρ) c).trans (by
    rw [sums1, counts1, feats1, wl1, wr1, bias1]
    exact firstLayer_keepdims _ _ _ _ _ _ _ _))

/-! ## Before the second region: what the first region did not write is read back through it -/

set_option maxHeartbeats 4000000 in
theorem edges0 (c : Dev nD) : (W2 m ρ c (Proc.devRef .tc main_v1) : S1600000.Idx → BitVec 32) = edgeRow0 (m ((c : Thread nD τ).loc main_arg1)) :=
  (W2_of_ne m ρ c main_v1 (by decide)).trans (by
    show StableHlo.after hostOps0 (W0 m ρ c) (Proc.devRef .tc main_v1) = _
    after_results_simp
    rfl)

set_option maxHeartbeats 4000000 in
theorem edges1 (c : Dev nD) : (W2 m ρ c (Proc.devRef .tc main_v3) : S1600000.Idx → BitVec 32) = edgeRow1 (m ((c : Thread nD τ).loc main_arg1)) :=
  (W2_of_ne m ρ c main_v3 (by decide)).trans (by
    show StableHlo.after hostOps0 (W0 m ρ c) (Proc.devRef .tc main_v3) = _
    after_results_simp
    rfl)

set_option maxHeartbeats 4000000 in
theorem sums2 (c : Dev nD) : (V3 m ρ c main_v37 : S100000x128.Idx → EReal)
    = neighbourSum (m ((c : Thread nD τ).loc main_arg1)) (V2 m ρ c main_v26) := by
  show StableHlo.after hostOps1 (W2 m ρ c) (Proc.devRef .tc main_v37) = _
  after_results_simp
  rw [edges0, edges1]
  rfl

set_option maxHeartbeats 4000000 in
theorem counts2 (c : Dev nD) : (V3 m ρ c main_v12 : S100000x1.Idx → EReal)
    = shapeCast S100000x1 (degree (m ((c : Thread nD τ).loc main_arg1))) Cert.KernelIdeal.Facts₀.shapeCasts_S100000_S100000x1 := by
  show StableHlo.after hostOps1 (W2 m ρ c) (Proc.devRef .tc main_v12) = _
  after_results_simp
  exact (W2_arr m ρ c 1).trans (((dat0 (V1 m ρ) c).arrAt_in 1 rfl _).trans ((A_eq0 (V1 m ρ) c 1).trans (counts1 m ρ c)))

set_option maxHeartbeats 4000000 in
theorem feats2 (c : Dev nD) : (V3 m ρ c main_v26 : S100000x128.Idx → EReal) = V2 m ρ c main_v26 := by
  show StableHlo.after hostOps1 (W2 m ρ c) (Proc.devRef .tc main_v26) = _
  after_results_simp

set_option maxHeartbeats 4000000 in
theorem wl2 (c : Dev nD) : (V3 m ρ c main_v6 : S128x128.Idx → EReal)
    = transpose S128x128 [1, 0] (m ((c : Thread nD τ).loc main_arg5)) Cert.KernelIdeal.Facts₀.transposes_S128x128_S128x128_1_0 := by
  show StableHlo.after hostOps1 (W2 m ρ c) (Proc.devRef .tc main_v6) = _
  after_results_simp
  refine (W2_of_ne m ρ c main_v6 (by decide)).trans ?_
  show StableHlo.after hostOps0 (W0 m ρ c) (Proc.devRef .tc main_v6) = _
  after_results_simp

set_option maxHeartbeats 4000000 in
theorem wr2 (c : Dev nD) : (V3 m ρ c main_v7 : S128x128.Idx → EReal)
    = transpose S128x128 [1, 0] (m ((c : Thread nD τ).loc main_arg7)) Cert.KernelIdeal.Facts₀.transposes_S128x128_S128x128_1_0 := by
  show StableHlo.after hostOps1 (W2 m ρ c) (Proc.devRef .tc main_v7) = _
  after_results_simp
  refine (W2_of_ne m ρ c main_v7 (by decide)).trans ?_
  show StableHlo.after hostOps0 (W0 m ρ c) (Proc.devRef .tc main_v7) = _
  after_results_simp

set_option maxHeartbeats 4000000 in
theorem arg6_kept (c : Dev nD) : (W2 m ρ c (Proc.devRef .tc main_arg6) : S128.Idx → EReal) = m ((c : Thread nD τ).loc main_arg6) :=
  (W2_of_ne m ρ c main_arg6 (by decide)).trans (by
    show StableHlo.after hostOps0 (W0 m ρ c) (Proc.devRef .tc main_arg6) = _
    after_results_simp)

set_option maxHeartbeats 4000000 in
theorem bias2 (c : Dev nD) : (V3 m ρ c main_v38 : S1x128.Idx → EReal)
    = shapeCast S1x128 (m ((c : Thread nD τ).loc main_arg6)) Cert.KernelIdeal.Facts₀.shapeCasts_S128_S1x128 := by
  show StableHlo.after hostOps1 (W2 m ρ c) (Proc.devRef .tc main_v38) = _
  after_results_simp
  rw [arg6_kept]
  rfl

/-! ## The result -/

/-- The result buffer's contents at the end of the fold: the network of the launch contents of the arguments. -/
theorem result_eq (c : Dev nD) : (W4 m ρ c (Proc.devRef .tc main_v39) : S100000x128.Idx → EReal)
    = network (m ((c : Thread nD τ).loc main_arg1)) (m ((c : Thread nD τ).loc main_arg0))
        (m ((c : Thread nD τ).loc main_arg2)) (m ((c : Thread nD τ).loc main_arg4))
        (m ((c : Thread nD τ).loc main_arg5)) (m ((c : Thread nD τ).loc main_arg7))
        (m ((c : Thread nD τ).loc main_arg3)) (m ((c : Thread nD τ).loc main_arg6)) :=
  (W4_arr m ρ c 6).trans ((final1 (V3 m ρ) c).trans (by
    rw [sums2, counts2, feats2, wl2, wr2, bias2, hidden_eq]
    exact secondLayer_keepdims _ _ _ _ _ _ _ _))

end Cert.KernelIdeal.Stages

end
-- ==== Proof.RefNetwork.lean ====
/-
  The reference computes the network.

  The reference's run ends with its result at one long term: the host operations composed. Read from the inside,
  that term is the two layers as the host spells them — the neighbour sums divided by the neighbour counts (their
  maximum with one, kept as a column and broadcast), a product, the bias, a second product — around the same two
  edge operators the kernel program uses. The host's layer is `SageLayer.layer` (row by row: `rowOf_combine_host`),
  the rectifier is the maximum with a zero array, and what is left is the network of the argument arrays.
-/
import proofs.«165354_j26474178413285_2_alg».proof.Proof.Gen.ReferenceIdeal.Run
import proofs.«165354_j26474178413285_2_alg».proof.Proof.GraphOps

set_option maxRecDepth 16384

noncomputable section

namespace Cert.ReferenceIdeal.Net

open Cert.ReferenceIdeal Cert.SageLayer Cert.RowLayers
open Idealize.ShloMosaic Idealize.ShloMosaic.TcCoe Idealize.ShloMosaic.ValueIdx Idealize.SL.Sem
open Cert.ReferenceIdeal.Facts₀ Cert.ReferenceIdeal.Facts

/-- The host's matrix product is "rows times columns". -/
theorem rows_times_cols : RowsTimesCols dot_S100000x128_S128x128_S100000x128_1_0_0_1_n_n where
  rank := rfl
  size := rfl
  lhs0 := fun j q => by
    unfold DotDims.lhsIdx
    rw [dif_neg (show ¬(0 : Fin S100000x128.rank) ∈ dot_S100000x128_S128x128_S100000x128_1_0_0_1_n_n.lhsBatch by decide),
      dif_pos (show (0 : Fin S100000x128.rank) ∈ dot_S100000x128_S128x128_S100000x128_1_0_0_1_n_n.lhsNonContracting by decide)]
    rfl
  lhs1 := fun j q => dot_S100000x128_S128x128_S100000x128_1_0_0_1_n_n.lhsIdx_val_of_single rfl j q
  rhs0 := fun j q => dot_S100000x128_S128x128_S100000x128_1_0_0_1_n_n.rhsIdx_val_of_single rfl j q
  rhs1 := fun j q => by
    unfold DotDims.rhsIdx
    rw [dif_neg (show ¬(1 : Fin S128x128.rank) ∈ dot_S100000x128_S128x128_S100000x128_1_0_0_1_n_n.rhsBatch by decide),
      dif_pos (show (1 : Fin S128x128.rank) ∈ dot_S100000x128_S128x128_S100000x128_1_0_0_1_n_n.rhsNonContracting by decide)]
    rfl

/-- The host's layer on whole arrays is `layer`. -/
theorem host_layer (agg : FVec Ideal S100000x128 .f32) (deg : FVec Ideal S100000 .f32) (h : FVec Ideal S100000x128 .f32)
    (wl wr : FVec Ideal S128x128 .f32) (b : FVec Ideal S128 .f32) :
    addf (addf
        (Host.dotGeneral (F := Ideal) dot_S100000x128_S128x128_S100000x128_1_0_0_1_n_n none
          (Host.divf agg (broadcastInDim S100000x128 ![0, 1] bcast_S100000x1_S100000x128_0_1 (broadcastInDim S100000x1 ![0] bcast_S100000_S100000x1_0
            (maximumf deg (broadcastInDim S100000 ![] bcast_S_S100000 (constant (F := Ideal) S_ .f32 0x3F800000#32)))))) wl)
        (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none h wr)
      = layer (Ideal.ofBits .f32 0x3F800000#32) agg (fun p => deg (ix1 p)) h wl wr (fun j => b (ix1 j)) := by
  funext i
  obtain ⟨p, q, rfl⟩ : ∃ (p : Fin 100000) (q : Fin 128), i = ix2 p q := ⟨i 0, i 1, eq_ix2 i⟩
  exact congrFun (rowOf_combine_host (s0 := S_) rows_times_cols none agg deg h wl wr b 0x3F800000#32 ![] bcast_S_S100000
    bcast_S100000_S100000x1_0 bcast_S100000x1_S100000x128_0_1 bcast_S128_S1x128_1 bcast_S1x128_S100000x128_0_1 p) q

/-- The two programs' records of the gather and of the two scatter-adds are the same records. -/
theorem gather_eq : gather_S100000x128_S1600000x1_S1600000x128_1_0_n_n_0_1_1128
    = Cert.KernelIdeal.gather_S100000x128_S1600000x1_S1600000x128_1_0_n_n_0_1_1128 := rfl
theorem scatter_rows_eq : scatter_S100000x128_S1600000x1_S1600000x128_1_0_0_1
    = Cert.KernelIdeal.scatter_S100000x128_S1600000x1_S1600000x128_1_0_0_1 := rfl
theorem scatter_count_eq : scatter_S100000_S1600000x1_S1600000_n_0_0_1
    = Cert.KernelIdeal.scatter_S100000_S1600000x1_S1600000_n_0_0_1 := rfl

/-- The reference's result term is the network of the launch contents of its arguments. -/
theorem result_eq (m : (ℓ : Loc nD τ sig) → Buf (Elt Ideal) ℓ) (c : Dev nD) :
    (Cert.ReferenceIdeal.Value.res_main_v58 (F := Ideal) m c : S100000x128.Idx → EReal)
      = Cert.KernelIdeal.Graph.network (m ((c.tc : Thread nD τ).loc main_arg1)) (m ((c.tc : Thread nD τ).loc main_arg0))
          (m ((c.tc : Thread nD τ).loc main_arg2)) (m ((c.tc : Thread nD τ).loc main_arg4))
          (m ((c.tc : Thread nD τ).loc main_arg5)) (m ((c.tc : Thread nD τ).loc main_arg7))
          (m ((c.tc : Thread nD τ).loc main_arg3)) (m ((c.tc : Thread nD τ).loc main_arg6)) := by
  unfold Cert.ReferenceIdeal.Value.res_main_v58
  simp only [gather_eq, scatter_rows_eq, scatter_count_eq]
  rw [host_layer, host_layer]
  rfl

end Cert.ReferenceIdeal.Net

end
-- ==== Proof.lean ====
/-
  A two-layer mean-aggregating graph convolution: a kernel program against its plain reference, equal over the
  extended reals.

  Both programs take node features x : [100000, 128], an edge list [2, 1600000] and, per layer, two weight
  matrices and a bias. A layer sums, for every node, the feature rows at the sources of its incoming edges,
  divides the sum by max(number of incoming edges, 1), multiplies by the first weight matrix transposed, adds the
  node's own row times the second weight matrix transposed, and adds the bias; the first layer is followed by a
  rectifier. The reference does all of this with array operations. The kernel program does the gathers and the
  scatter-adds with the same array operations (counting the incoming edges once for both layers, and passing the
  gathered rows through a narrower float format, which is the identity on extended reals) and fuses the division,
  the two products, the bias and the rectifier into one kernel per layer, run on ten blocks of 10000 rows.

  Proof/LibSageLayer.lean names a node's combine and the layer, and reads both spellings of it row by row; they
  differ in the order of three summands only, so commutativity and associativity of addition join them and the
  finiteness of the inputs is never used. Proof/KernelBlock.lean reads the two kernels' stored rows,
  Proof/RegionValue.lean turns the ten written blocks into one whole-array function per region,
  Proof/KernelStages.lean reads the program's buffers before and after each region and arrives at the network
  (Proof/GraphOps.lean) of the argument arrays, Proof/KernelRun.lean is the program's run with the result named, and
  Proof/RefNetwork.lean shows the reference's result term to be the same network. The idealization rewrote no
  operation, so `preserves` is trivial; the three frames are the generated ones.
-/
import proofs.«165354_j26474178413285_2_alg».proof.Defs
import proofs.«165354_j26474178413285_2_alg».proof.Proof.Gen.Kernel
import proofs.«165354_j26474178413285_2_alg».proof.Proof.Gen.Kernel.Frame
import proofs.«165354_j26474178413285_2_alg».proof.Proof.Gen.KernelIdeal
import proofs.«165354_j26474178413285_2_alg».proof.Proof.Gen.KernelIdeal.Frame
import proofs.«165354_j26474178413285_2_alg».proof.Proof.Gen.ReferenceIdeal
import proofs.«165354_j26474178413285_2_alg».proof.Proof.Gen.ReferenceIdeal.Run
import proofs.«165354_j26474178413285_2_alg».proof.Proof.Gen.Pre_finite_inputs
import proofs.«165354_j26474178413285_2_alg».proof.Proof.KernelRun
import proofs.«165354_j26474178413285_2_alg».proof.Proof.KernelStages
import proofs.«165354_j26474178413285_2_alg».proof.Proof.RefNetwork

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the argument arrays in their result buffer: the kernel program by its run
    read through its two regions, the reference by its run's result term, from memories that agree on the arguments. -/
theorem algebraic : Cert.algebraic_KernelIdeal_ReferenceIdeal := by
  intro m ρ m' ρ' _ hagree
  refine ⟨fun c => Cert.KernelIdeal.Graph.network
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    refine (Cert.ReferenceIdeal.Net.result_eq m' c).trans ?_
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
